-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_1048576_11863283" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S4x4096x4096 : Shape := ⟨3, ![4, 4096, 4096]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x128 .f32) (main_arg1 : FVec F S128x128 .f32) (main_arg2 : FVec F S128x128 .f32) (main_arg3 : IVec S4x4096x4096 1) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4x4096x128 : Shape := ⟨3, ![4, 4096, 128]⟩
abbrev S128x128 : Shape := ⟨2, ![128, 128]⟩
abbrev S4x4096x4096 : Shape := ⟨3, ![4, 4096, 4096]⟩
abbrev S16384x128 : Shape := ⟨2, ![16384, 128]⟩
abbrev S2048x128 : Shape := ⟨2, ![2048, 128]⟩
abbrev S1x512x128 : Shape := ⟨3, ![1, 512, 128]⟩
abbrev S1x4096x128 : Shape := ⟨3, ![1, 4096, 128]⟩
abbrev S1x512x4096 : Shape := ⟨3, ![1, 512, 4096]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128x128, .f32⟩
  | .hbm, ⟨3, _⟩ => ⟨S4x4096x4096, .i1⟩
  | .hbm, ⟨4, _⟩ => ⟨S16384x128, .f32⟩
  | .hbm, ⟨5, _⟩ => ⟨S128x128, .f32⟩
  | .hbm, ⟨6, _⟩ => ⟨S128x128, .f32⟩
  | .hbm, ⟨7, _⟩ => ⟨S16384x128, .bf16⟩
  | .hbm, ⟨8, _⟩ => ⟨S16384x128, .bf16⟩
  | .hbm, ⟨9, _⟩ => ⟨S4x4096x128, .bf16⟩
  | .hbm, ⟨10, _⟩ => ⟨S4x4096x128, .bf16⟩
  | .hbm, ⟨11, _⟩ => ⟨S4x4096x4096, .i32⟩
  | .hbm, ⟨12, _⟩ => ⟨S4x4096x128, .f32⟩
  | .hbm, ⟨13, _⟩ => ⟨S4x4096x4096, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x512x128, .f32⟩
  | .local _ .vmem, ⟨9, _⟩ => ⟨S1x512x128, .f32⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x512x4096, .i32⟩
  | .local _ .vmem, ⟨15, _⟩ => ⟨S1x512x4096, .i32⟩
  | .local _ .vmem, ⟨16, _⟩ => ⟨S1x512x128, .f32⟩
  | .local _ .vmem, ⟨17, _⟩ => ⟨S1x512x128, .f32⟩
  | .local _ .vmem, ⟨18, _⟩ => ⟨S1x512x4096, .f32⟩
  | .local _ .vmem, ⟨19, _⟩ => ⟨S1x512x4096, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x4096x128_S16384x128 : S4x4096x128.ShapeCasts S16384x128
  transposes_S128x128_S128x128_1_0 : S128x128.Transposes [1, 0] S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  shapeCasts_S16384x128_S4x4096x128 : S16384x128.ShapeCasts S4x4096x128
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  broadcasts_S512x1_S512x4096 : S512x1.Broadcasts S512x4096
  shapeCasts_S512x4096_S1x512x4096 : S512x4096.ShapeCasts S1x512x4096
  shapeCasts_S512x128_S1x512x128 : S512x128.ShapeCasts S1x512x128
  dot_S2048x128_S128x128_S2048x128_1_0_0_1_n_n_wf : DotDims.WF S2048x128 S128x128 S2048x128 [1] [0] [0] [1] [] []
  dot_S512x128_S4096x128_S512x4096_1_1_0_0_n_n_wf : DotDims.WF S512x128 S4096x128 S512x4096 [1] [1] [0] [0] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .bf16 = 32 ∨ (Rect.block (s := S16384x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .bf16 = 32 ∨ (Rect.block (s := S16384x128) S2048x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x4096x128.size a
  hwx1_0 : ∀ i : grid1.Coords, EltTy.bits .f32 = 32 ∨ (Rect.block (s := S4x4096x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x128.size a
  hwx1_2 : ∀ i : grid1.Coords, EltTy.bits .bf16 = 32 ∨ (Rect.block (s := S4x4096x128) S1x4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x4096.size a ≤ S4x4096x4096.size a
  hwx1_3 : ∀ i : grid1.Coords, EltTy.bits .i32 = 32 ∨ (Rect.block (s := S4x4096x4096) S1x512x4096.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S4x4096x128.size a
  hwx1_4 : ∀ i : grid1.Coords, EltTy.bits .f32 = 32 ∨ (Rect.block (s := S4x4096x128) S1x512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x4096.size a ≤ S4x4096x4096.size a
  hwx1_5 : ∀ i : grid1.Coords, EltTy.bits .f32 = 32 ∨ (Rect.block (s := S4x4096x4096) S1x512x4096.size (cc1_transform_5 i) (hinb1_5 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x512x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x512x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x128 : Shape := ⟨3, ![4, 4096, 128]⟩
abbrev S128x128 : Shape := ⟨2, ![128, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128x128, .f32⟩
  | .hbm, ⟨3, _⟩ => ⟨S4x4096x4096, .i1⟩
  | .hbm, ⟨4, _⟩ => ⟨S4x4096x128, .f32⟩
  | .hbm, ⟨5, _⟩ => ⟨S4x4096x128, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KRun.lean ====
/-
  The idealized kernel program's run, with its two result arrays named.

  The program is two kernel regions among short stretches of host operations. Every weakly fair execution from a
  launch memory with zero counters terminates without a fault, and at the end every buffer outside the kernels'
  scopes holds the contents the fold through the program's segments assigns it: the launch memory, pushed through
  the first host stretch, the first region's write-backs, the second host stretch and the second region's
  write-backs. Read at the two result buffers and at the four arguments, that is the statement below; the
  arguments walk back through the fold unchanged.
-/
import proofs.«129973_j52381421142031_2_alg».proof.Proof.Gen.KernelIdeal.Frame

set_option maxRecDepth 16384

noncomputable section

namespace Cert.Attn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result buffers end at the last boundary's contents, the arguments as launched. -/
theorem run : θ_run defs (onTc (τ := τ) (main (F := F))) ⟨m, fun _ => 0, ρ⟩ (fun r => ∀ c : Dev nD,
      r.2.mem ((c.tc : Thread nD τ).loc main_v7_0) = W4 m ρ c (Proc.devRef .tc main_v7_0)
      ∧ r.2.mem ((c.tc : Thread nD τ).loc main_v7_1) = W4 m ρ c (Proc.devRef .tc main_v7_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7_0 (by decide)),
       h c _ (mem_uc main_v7_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Attn.KRun

end
-- ==== Proof.Spec.lean ====
/-
  Single-head attention under a Boolean mask, as one function of the argument arrays over the extended reals.

  For a batch b, the keys and the values are the rows of the input projected by two square weight matrices:
  key b s e = ∑ d, x b s d · w e d (each output feature e is the inner product of a row of the input with row e of the
  weights). The score of a query row q against a key row k is their inner product, multiplied by a scale. Where the
  mask holds, the score is replaced by the bottom element. A row of such entries is turned into weights by the
  softmax written the stable way: subtract the row's maximum (a fold of max from the bottom element's word), take
  the exponential, divide by the sum of the exponentials of the row. The output row is the weighted sum of the
  value rows. Every step is an exact operation on extended reals; nothing here needs the entries to be finite.

  The scale is the rational 1048576 / 11863283, the reciprocal of 11863283 / 1048576 = 11.313708305358887…, the
  number the single-precision word 0x413504F3 denotes: dividing by that number and multiplying by the scale are the
  same map on every extended real.
-/
import Idealize.ShloMosaic.PureOps.Ideal
import Idealize.ShloMosaic.Lib.ValueIdx

noncomputable section

namespace Cert.Attn

open Idealize.ShloMosaic Idealize.ShloMosaic.ValueIdx

/-- The input rows: 4 batches of 4096 rows of 128 features. -/
abbrev Inp := (⟨3, ![4, 4096, 128]⟩ : Shape).Idx → EReal
/-- A projection's weights, output feature first. -/
abbrev Wgt := (⟨2, ![128, 128]⟩ : Shape).Idx → EReal
/-- The mask: one bit per (batch, query row, key row). -/
abbrev Msk := (⟨3, ![4, 4096, 4096]⟩ : Shape).Idx → BitVec 1

/-- The bottom element as both programs spell it: the word of the negative infinity. It is never evaluated. -/
abbrev negInf : EReal := Ideal.ofBits .f32 0xFF800000#32

/-- The scale of a score: the reciprocal of the number the divisor's word denotes. -/
def scale : EReal := ((1048576 / 11863283 : ℝ) : EReal)

/-- The divisor's word denotes 11863283 / 1048576. -/
theorem ofBits_divisor : Ideal.ofBits .f32 0x413504F3#32 = ((11863283 / 1048576 : ℝ) : EReal) := by
  simp [Ideal.ofBits, Ideal.ieee, -EReal.coe_mul]; norm_num

/-- Dividing by the divisor's word is multiplying by the scale, on every extended real. -/
theorem div_divisor (x : EReal) : Ideal.div x (Ideal.ofBits .f32 0x413504F3#32) = x * scale := by
  rw [ofBits_divisor, Ideal.div_coe (by norm_num : (11863283 / 1048576 : ℝ) ≠ 0)]
  unfold scale
  norm_num

/-- A projection: output feature e of row s of batch b. -/
def proj (x : Inp) (w : Wgt) (b : Fin 4) (s : Fin 4096) (e : Fin 128) : EReal :=
  ∑ d : Fin 128, x (ix3 b s d) * w (ix2 e d)

/-- The softmax of a row of 4096 entries, written the stable way. -/
def softmax (f : Fin 4096 → EReal) (k : Fin 4096) : EReal :=
  Ideal.div (Ideal.exp (f k - (Finset.univ : Finset (Fin 4096)).fold max negInf f))
    (∑ k' : Fin 4096, Ideal.exp (f k' - (Finset.univ : Finset (Fin 4096)).fold max negInf f))

/-- The masked, scaled score of query row q against key row k. -/
def logit (x : Inp) (wk : Wgt) (mk : Msk) (b : Fin 4) (q k : Fin 4096) : EReal :=
  Scalar.select (mk (ix3 b q k)) negInf ((∑ d : Fin 128, x (ix3 b q d) * proj x wk b k d) * scale)

/-- The attention weight of key row k for query row q. -/
def attn (x : Inp) (wk : Wgt) (mk : Msk) (b : Fin 4) (q k : Fin 4096) : EReal :=
  softmax (logit x wk mk b q) k

/-- Feature e of the output row q: the value rows weighted by the attention weights. -/
def out (x : Inp) (wk wv : Wgt) (mk : Msk) (b : Fin 4) (q : Fin 4096) (e : Fin 128) : EReal :=
  ∑ k : Fin 4096, attn x wk mk b q k * proj x wv b k e

/-- The attention weights as an array [4, 4096, 4096]. -/
def attnArr (x : Inp) (wk : Wgt) (mk : Msk) : (⟨3, ![4, 4096, 4096]⟩ : Shape).Idx → EReal :=
  fun i => attn x wk mk ⟨(i 0).val, (i 0).isLt⟩ ⟨(i 1).val, (i 1).isLt⟩ ⟨(i 2).val, (i 2).isLt⟩

/-- The output as an array [4, 4096, 128]. -/
def outArr (x : Inp) (wk wv : Wgt) (mk : Msk) : (⟨3, ![4, 4096, 128]⟩ : Shape).Idx → EReal :=
  fun i => out x wk wv mk ⟨(i 0).val, (i 0).isLt⟩ ⟨(i 1).val, (i 1).isLt⟩ ⟨(i 2).val, (i 2).isLt⟩

theorem attnArr_ix3 (x : Inp) (wk : Wgt) (mk : Msk) (b : Fin 4) (q k : Fin 4096) :
    attnArr x wk mk (ix3 b q k) = attn x wk mk b q k := rfl

theorem outArr_ix3 (x : Inp) (wk wv : Wgt) (mk : Msk) (b : Fin 4) (q : Fin 4096) (e : Fin 128) :
    outArr x wk wv mk (ix3 b q e) = out x wk wv mk b q e := rfl

end Cert.Attn

end
-- ==== Proof.HostReads.lean ====
/-
  The host operations around the two kernel regions, read at an index.

  Before the first region the input [4, 4096, 128] is re-laid as the matrix [16384, 128] of all its rows (row
  b · 4096 + s of the matrix is row s of batch b) and the two weight matrices are transposed. Between the regions
  the two projected matrices [16384, 128] are re-laid as [4, 4096, 128] and the mask's bits are widened to 32-bit
  words. No host operation and no region writes an argument, so the second region finds the input as launched.
-/
import proofs.«129973_j52381421142031_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.Attn.HostReads

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Before the first region -/

/-- The matrix of all rows: row b · 4096 + s is row s of batch b of the input. -/
theorem rows_apply (c : Dev nD) (b : Fin 4) (s : Fin 4096) (d : Fin 128) (n : Fin 16384) (hn : n.val = b.val * 4096 + s.val) :
    (V1 m ρ c main_v0 : S16384x128.Idx → EReal) (ix2 n d) = (m ((c : Thread nD τ).loc main_arg0) : S4x4096x128.Idx → EReal) (ix3 b s d) := by
  have e : (V1 m ρ c main_v0 : S16384x128.Idx → EReal)
      = shapeCast S16384x128 (m ((c : Thread nD τ).loc main_arg0)) shapeCasts_S4x4096x128_S16384x128 := by
    show StableHlo.after hostOps0 (W0 m ρ c) (Proc.devRef .tc main_v0) = _
    after_results
    rfl
  rw [e]
  refine shapeCast_apply _ _ _ _ ?_
  show (S4x4096x128.rowMajor (ix3 b s d)).val = (S16384x128.rowMajor (ix2 n d)).val
  rw [Shape.rowMajor_val_three, Shape.rowMajor_val_two]
  show (b.val * 4096 + s.val) * 128 + d.val = n.val * 128 + d.val
  rw [hn]

/-- The first weight matrix transposed: entry (d, e) is entry (e, d) of the argument. -/
theorem wkT_apply (c : Dev nD) (d e : Fin 128) :
    (V1 m ρ c main_v1 : S128x128.Idx → EReal) (ix2 d e) = (m ((c : Thread nD τ).loc main_arg1) : S128x128.Idx → EReal) (ix2 e d) := by
  have e1 : (V1 m ρ c main_v1 : S128x128.Idx → EReal)
      = transpose S128x128 [1, 0] (m ((c : Thread nD τ).loc main_arg1)) transposes_S128x128_S128x128_1_0 := by
    show StableHlo.after hostOps0 (W0 m ρ c) (Proc.devRef .tc main_v1) = _
    after_results
  rw [e1]
  refine transpose_apply _ _ _ _ _ fun a => ?_
  match a with
  | ⟨0, _⟩ => rfl
  | ⟨1, _⟩ => rfl

/-- The second weight matrix transposed. -/
theorem wvT_apply (c : Dev nD) (d e : Fin 128) :
    (V1 m ρ c main_v2 : S128x128.Idx → EReal) (ix2 d e) = (m ((c : Thread nD τ).loc main_arg2) : S128x128.Idx → EReal) (ix2 e d) := by
  have e1 : (V1 m ρ c main_v2 : S128x128.Idx → EReal)
      = transpose S128x128 [1, 0] (m ((c : Thread nD τ).loc main_arg2)) transposes_S128x128_S128x128_1_0 := by
    show StableHlo.after hostOps0 (W0 m ρ c) (Proc.devRef .tc main_v2) = _
    after_results
  rw [e1]
  refine transpose_apply _ _ _ _ _ fun a => ?_
  match a with
  | ⟨0, _⟩ => rfl
  | ⟨1, _⟩ => rfl

/-! ## Between the regions -/

/-- The first projected matrix re-laid by batches: entry (b, s, d) is entry (b · 4096 + s, d) of what the first
    region leaves in its first result array. -/
theorem keys_apply (c : Dev nD) (b : Fin 4) (s : Fin 4096) (d : Fin 128) (n : Fin 16384) (hn : n.val = b.val * 4096 + s.val) :
    (V3 m ρ c main_v4 : S4x4096x128.Idx → EReal) (ix3 b s d)
      = ((dat0 (V1 m ρ) c).arrAt 3 cfg0.N : S16384x128.Idx → EReal) (ix2 n d) := by
  have e : (V3 m ρ c main_v4 : S4x4096x128.Idx → EReal)
      = shapeCast S4x4096x128 (W2 m ρ c (Proc.devRef .tc main_v3_0)) shapeCasts_S16384x128_S4x4096x128 := by
    show StableHlo.after hostOps1 (W2 m ρ c) (Proc.devRef .tc main_v4) = _
    after_results
    rfl
  rw [e, ← W2_arr m ρ c 3]
  refine shapeCast_apply _ _ _ _ ?_
  show (S16384x128.rowMajor (ix2 n d)).val = (S4x4096x128.rowMajor (ix3 b s d)).val
  rw [Shape.rowMajor_val_three, Shape.rowMajor_val_two]
  show n.val * 128 + d.val = (b.val * 4096 + s.val) * 128 + d.val
  rw [hn]

/-- The second projected matrix re-laid by batches. -/
theorem vals_apply (c : Dev nD) (b : Fin 4) (s : Fin 4096) (d : Fin 128) (n : Fin 16384) (hn : n.val = b.val * 4096 + s.val) :
    (V3 m ρ c main_v5 : S4x4096x128.Idx → EReal) (ix3 b s d)
      = ((dat0 (V1 m ρ) c).arrAt 4 cfg0.N : S16384x128.Idx → EReal) (ix2 n d) := by
  have e : (V3 m ρ c main_v5 : S4x4096x128.Idx → EReal)
      = shapeCast S4x4096x128 (W2 m ρ c (Proc.devRef .tc main_v3_1)) shapeCasts_S16384x128_S4x4096x128 := by
    show StableHlo.after hostOps1 (W2 m ρ c) (Proc.devRef .tc main_v5) = _
    after_results
    rfl
  rw [e, ← W2_arr m ρ c 4]
  refine shapeCast_apply _ _ _ _ ?_
  show (S16384x128.rowMajor (ix2 n d)).val = (S4x4096x128.rowMajor (ix3 b s d)).val
  rw [Shape.rowMajor_val_three, Shape.rowMajor_val_two]
  show n.val * 128 + d.val = (b.val * 4096 + s.val) * 128 + d.val
  rw [hn]

/-- An argument the first stretch and the first region leave alone. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg3) := rfl

/-- The mask's bits widened to words. -/
theorem maskWords_apply (c : Dev nD) (i : S4x4096x4096.Idx) :
    (V3 m ρ c main_v6 : S4x4096x4096.Idx → BitVec 32) i = ((m ((c : Thread nD τ).loc main_arg3) : S4x4096x4096.Idx → BitVec 1) i).setWidth 32 := by
  have e : (V3 m ρ c main_v6 : S4x4096x4096.Idx → BitVec 32)
      = extui 32 (W2 m ρ c (Proc.devRef .tc main_arg3)) natLt_1_32 := by
    show StableHlo.after hostOps1 (W2 m ρ c) (Proc.devRef .tc main_v6) = _
    after_results
  rw [e, W2_main_arg3]
  rfl

/-- The second region finds the input as launched. -/
theorem input_kept (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

end Cert.Attn.HostReads

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.ProjBody.lean ====
/-
  The projection kernel's two stored values, read at an index, on the extended reals.

  Each is the product of a 2048 × 128 block of input rows with a 128 × 128 matrix, accumulated into the zero splat and
  then narrowed (a change of float format is the identity on extended reals): at (p, e) it is the sum over d < 128 of
  block (p, d) · matrix (d, e).
-/
import proofs.«129973_j52381421142031_2_alg».proof.Proof.Gen.KernelIdeal.Skeleton
import proofs.«129973_j52381421142031_2_alg».proof.Proof.Spec
import proofs.«129973_j52381421142031_2_alg».proof.Proof.LibPlainDot
import Idealize.ShloMosaic.Lib.Pipeline.Value

noncomputable section

namespace Cert.Attn.Body

open Idealize.ShloMosaic Idealize.ShloMosaic.ValueIdx Cert.KernelIdeal Cert.KernelIdeal.Gen

/-! ## The contraction [2048, 128] · [128, 128]: which operand coordinates it names -/

theorem proj_l0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl

theorem proj_l1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q

theorem proj_r0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q

theorem proj_r1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- The block times a matrix, into the zero splat, at (p, e). -/
theorem proj_matmul_apply (lhs : FVec Ideal S2048x128 .f32) (rhs : FVec Ideal S128x128 .f32) (p : Fin 2048) (e : Fin 128) :
    matmul dot_S2048x128_S128x128_S2048x128_1_0_0_1_n_n none lhs rhs (constant (F := Ideal) S2048x128 .f32 0x00000000#32) (ix2 p e)
      = ∑ d : Fin 128, lhs (ix2 p d) * rhs (ix2 d e) :=
  Cert.Lib.PlainDot.matmul_zero_apply dot_S2048x128_S128x128_S2048x128_1_0_0_1_n_n rfl rfl proj_l0 proj_l1 proj_r0 proj_r1
    none lhs rhs p e

/-! ## The two stored values -/

/-- The first projection's stored value at (p, e). -/
theorem key_payload (x0 : Vec Ideal S2048x128 .f32) (x1 : Vec Ideal S128x128 .f32) (p : Fin 2048) (e : Fin 128) :
    k0_pay2 (F := Ideal) x0 x1 (ix2 p e) = ∑ d : Fin 128, x0 (ix2 p d) * x1 (ix2 d e) := by
  unfold k0_pay2 k0_pay1
  dsimp only
  rw [truncf_apply, shapeCast_self, shapeCast_self]
  exact proj_matmul_apply x0 x1 p e

/-- The second projection's stored value at (p, e). -/
theorem val_payload (x0 : Vec Ideal S2048x128 .f32) (x1 : Vec Ideal S128x128 .f32) (p : Fin 2048) (e : Fin 128) :
    k0_pay3 (F := Ideal) x0 x1 (ix2 p e) = ∑ d : Fin 128, x0 (ix2 p d) * x1 (ix2 d e) := by
  unfold k0_pay3 k0_pay1
  dsimp only
  rw [truncf_apply, shapeCast_self, shapeCast_self]
  exact proj_matmul_apply x0 x1 p e

end Cert.Attn.Body

end
-- ==== Proof.Region0.lean ====
/-
  The first region: the projection kernel's two result arrays, as whole-array functions of what the region finds.

  The grid has 8 points; point t stages rows 2048 t … 2048 t + 2047 of the matrix of all rows, and both weight
  matrices whole, and writes back the same rows of each result. A result's block is the product of the staged rows
  with the staged (already transposed) weights, so the whole result array is the product of the whole rows matrix
  with the weights: entry (n, e) is the sum over d of rows (n, d) · weights (d, e). The blocks of the 8 points
  tile the array, so every entry is covered.
-/
import proofs.«129973_j52381421142031_2_alg».proof.Proof.Gen.KernelIdeal.Frame
import proofs.«129973_j52381421142031_2_alg».proof.Proof.Spec
import proofs.«129973_j52381421142031_2_alg».proof.Proof.ProjBody
import Idealize.ShloMosaic.Lib.Pipeline.Value
import Idealize.ShloMosaic.Lib.ValueIdx

set_option maxRecDepth 16384

noncomputable section

namespace Cert.Attn.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product of the matrix of all rows with a weight matrix laid input feature first. -/
def rowsTimes (X : S16384x128.Idx → EReal) (W : S128x128.Idx → EReal) : S16384x128.Idx → EReal :=
  fun i => ∑ d : Fin 128, X (ix2 (⟨(i 0).val, (i 0).isLt⟩ : Fin 16384) d) * W (ix2 d (⟨(i 1).val, (i 1).isLt⟩ : Fin 128))

theorem rowsTimes_ix2 (X : S16384x128.Idx → EReal) (W : S128x128.Idx → EReal) (n : Fin 16384) (e : Fin 128) :
    rowsTimes X W (ix2 n e) = ∑ d : Fin 128, X (ix2 n d) * W (ix2 d e) := rfl

theorem zero_offsets : (![0, 0] : Fin 2 → Nat) = fun _ => 0 := funext fun a => by fin_cases a <;> rfl

/-- The printed index maps over the grid: the rows window and both result windows sit at block (t, 0), the weights
    at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7
    ∧ win0_4.index t (0 : Fin 2) = win0_3.index t (0 : Fin 2) ∧ win0_4.index t (1 : Fin 2) = 0 :=
  (by decide +kernel : ∀ t : Fin grid0.N, _)

/-- Every block row of the result is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- What point t writes back to the first result: its rows of the product with the first weights. -/
theorem flushed3_eq (c : Dev nD) (t : Fin cfg0.N) :
    (dat0 V c).flushed 3 t = ((cfg0.win 3).blk t).view.read (Elt Ideal) (rowsTimes (V c main_v0) (V c main_v1)) := by
  show (cfg0.win 3).cut (grid0.coords t) ((dat0 V c).after 3 t) = _
  rw [after0_3]
  unfold out0_3
  rw [View.canon_unit_zero zero_offsets]
  simp only [View.ld_unit_zero (S := S2048x128) zero_offsets, View.ld_unit_zero (S := S128x128) zero_offsets]
  obtain ⟨e0, e1, e2, e3, e4, e5, e6, e7, e8, e9⟩ := idx_facts t
  funext j
  obtain ⟨p, e, rfl⟩ : ∃ (p : Fin 2048) (e : Fin 128), j = ix2 p e := ⟨j 0, j 1, eq_ix2 j⟩
  refine (Cert.Attn.Body.key_payload (iblk0 V c 0 t) (iblk0 V c 1 t) p e).trans ?_
  show _ = rowsTimes (V c main_v0) (V c main_v1) (((cfg0.win 3).blk t).view.emb (ix2 p e))
  unfold rowsTimes
  refine Finset.sum_congr rfl fun d _ => ?_
  have h0 : ((cfg0.win 0).blk t).view.emb (ix2 p d)
      = ix2 (⟨((((cfg0.win 3).blk t).view.emb (ix2 p e)) 0).val, ((((cfg0.win 3).blk t).view.emb (ix2 p e)) 0).isLt⟩ : Fin 16384) d := by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 128 + 1 * d.val = d.val; omega
  have h1 : ((cfg0.win 1).blk t).view.emb (ix2 d e)
      = ix2 d (⟨((((cfg0.win 3).blk t).view.emb (ix2 p e)) 1).val, ((((cfg0.win 3).blk t).view.emb (ix2 p e)) 1).isLt⟩ : Fin 128) := by
    funext a; apply Fin.ext
    match a with
    | ⟨0, _⟩ => show win0_1.index t (0 : Fin 2) * 128 + 1 * d.val = d.val; omega
    | ⟨1, _⟩ => show win0_1.index t (1 : Fin 2) * 128 + 1 * e.val = win0_3.index t (1 : Fin 2) * 128 + 1 * e.val; omega
  have a0 : iblk0 V c 0 t (ix2 p d)
      = V c main_v0 (ix2 (⟨((((cfg0.win 3).blk t).view.emb (ix2 p e)) 0).val, ((((cfg0.win 3).blk t).view.emb (ix2 p e)) 0).isLt⟩ : Fin 16384) d) := by
    show V c main_v0 (((cfg0.win 0).blk t).view.emb (ix2 p d)) = _
    rw [h0]
  have a1 : iblk0 V c 1 t (ix2 d e)
      = V c main_v1 (ix2 d (⟨((((cfg0.win 3).blk t).view.emb (ix2 p e)) 1).val, ((((cfg0.win 3).blk t).view.emb (ix2 p e)) 1).isLt⟩ : Fin 128)) := by
    show V c main_v1 (((cfg0.win 1).blk t).view.emb (ix2 d e)) = _
    rw [h1]
  rw [a0, a1]

/-- What point t writes back to the second result: its rows of the product with the second weights. -/
theorem flushed4_eq (c : Dev nD) (t : Fin cfg0.N) :
    (dat0 V c).flushed 4 t = ((cfg0.win 4).blk t).view.read (Elt Ideal) (rowsTimes (V c main_v0) (V c main_v2)) := by
  show (cfg0.win 4).cut (grid0.coords t) ((dat0 V c).after 4 t) = _
  rw [after0_4]
  unfold out0_4
  rw [View.canon_unit_zero zero_offsets]
  simp only [View.ld_unit_zero (S := S2048x128) zero_offsets, View.ld_unit_zero (S := S128x128) zero_offsets]
  obtain ⟨e0, e1, e2, e3, e4, e5, e6, e7, e8, e9⟩ := idx_facts t
  funext j
  obtain ⟨p, e, rfl⟩ : ∃ (p : Fin 2048) (e : Fin 128), j = ix2 p e := ⟨j 0, j 1, eq_ix2 j⟩
  refine (Cert.Attn.Body.val_payload (iblk0 V c 0 t) (iblk0 V c 2 t) p e).trans ?_
  show _ = rowsTimes (V c main_v0) (V c main_v2) (((cfg0.win 4).blk t).view.emb (ix2 p e))
  unfold rowsTimes
  refine Finset.sum_congr rfl fun d _ => ?_
  have h0 : ((cfg0.win 0).blk t).view.emb (ix2 p d)
      = ix2 (⟨((((cfg0.win 4).blk t).view.emb (ix2 p e)) 0).val, ((((cfg0.win 4).blk t).view.emb (ix2 p e)) 0).isLt⟩ : Fin 16384) d := by
    funext a; apply Fin.ext
    match a with
    | ⟨0, _⟩ => show win0_0.index t (0 : Fin 2) * 2048 + 1 * p.val = win0_4.index t (0 : Fin 2) * 2048 + 1 * p.val; omega
    | ⟨1, _⟩ => show win0_0.index t (1 : Fin 2) * 128 + 1 * d.val = d.val; omega
  have h1 : ((cfg0.win 2).blk t).view.emb (ix2 d e)
      = ix2 d (⟨((((cfg0.win 4).blk t).view.emb (ix2 p e)) 1).val, ((((cfg0.win 4).blk t).view.emb (ix2 p e)) 1).isLt⟩ : Fin 128) := by
    funext a; apply Fin.ext
    match a with
    | ⟨0, _⟩ => show win0_2.index t (0 : Fin 2) * 128 + 1 * d.val = d.val; omega
    | ⟨1, _⟩ => show win0_2.index t (1 : Fin 2) * 128 + 1 * e.val = win0_4.index t (1 : Fin 2) * 128 + 1 * e.val; omega
  have a0 : iblk0 V c 0 t (ix2 p d)
      = V c main_v0 (ix2 (⟨((((cfg0.win 4).blk t).view.emb (ix2 p e)) 0).val, ((((cfg0.win 4).blk t).view.emb (ix2 p e)) 0).isLt⟩ : Fin 16384) d) := by
    show V c main_v0 (((cfg0.win 0).blk t).view.emb (ix2 p d)) = _
    rw [h0]
  have a1 : iblk0 V c 2 t (ix2 d e)
      = V c main_v2 (ix2 d (⟨((((cfg0.win 4).blk t).view.emb (ix2 p e)) 1).val, ((((cfg0.win 4).blk t).view.emb (ix2 p e)) 1).isLt⟩ : Fin 128)) := by
    show V c main_v2 (((cfg0.win 2).blk t).view.emb (ix2 d e)) = _
    rw [h1]
  rw [a0, a1]

/-- An index of a result array is in point t's block iff each coordinate is in the block's range on its axis. -/
theorem mem_blk3 (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v3_0).slice (win0_3.rect t)).set ↔ _
  rw [View.set_slice_whole, Rect.mem_set_unit]
  exact Iff.rfl

theorem mem_blk4 (t : Fin cfg0.N) (i : S16384x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v3_1).slice (win0_4.rect t)).set ↔ _
  rw [View.set_slice_whole, Rect.mem_set_unit]
  exact Iff.rfl

/-- Every entry of the first result is in the block of the point its row falls to: row n is in block n / 2048. -/
theorem cover3 (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

theorem cover4 (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  obtain ⟨t, ht⟩ := idx_onto ⟨(i 0).val / 2048, by omega⟩
  obtain ⟨e0, e1, e2, e3, e4, e5, e6, e7, e8, e9⟩ := idx_facts t
  have q0 : win0_3.index t (0 : Fin 2) = (i 0).val / 2048 := congrFun ht 0
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- The first result array after the region: the rows matrix times the first weights. -/
theorem final3 (c : Dev nD) : (dat0 V c).arrAt 3 cfg0.N = rowsTimes (V c main_v0) (V c main_v1) :=
  (dat0 V c).arrAt_eq_of_cover 3 (rowsTimes (V c main_v0) (V c main_v1)) (fun t _ => flushed3_eq V c t) cover3

/-- The second result array after the region: the rows matrix times the second weights. -/
theorem final4 (c : Dev nD) : (dat0 V c).arrAt 4 cfg0.N = rowsTimes (V c main_v0) (V c main_v2) :=
  (dat0 V c).arrAt_eq_of_cover 4 (rowsTimes (V c main_v0) (V c main_v2)) (fun t _ => flushed4_eq V c t) cover4

end Cert.Attn.Region0

end
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«129973_j52381421142031_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.LibRowMax.lean ====
/-
  The maximum of a row of a matrix, at the ideal instance.

  A float reduction with a maximum body over the lanes of an [a, b] matrix, read at row p, is the fold of max, from
  the value the accumulator's word denotes, over the b entries of row p: the reduced index p with lane k put back is
  (p, k), and max on the extended reals commutes and associates, so the fold does not depend on the order of the lanes.
-/
import Idealize.ShloMosaic.PureOps.Ideal.Laws
import Idealize.ShloMosaic.Lib.ValueIdx

noncomputable section

namespace Cert.Lib.RowMax

open Idealize.ShloMosaic Idealize.ShloMosaic.ValueIdx

/-- The reduced index p with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of an [a, b] matrix, at row p, is the fold of max over the b entries of row p. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => by show src (h.lift (ix1 p) k) = src (ix2 p k); rw [lift_lane]; rfl)

end Cert.Lib.RowMax

end
-- ==== Proof.AttnBody.lean ====
/-
  The attention kernel's two stored values, read at an index, on the extended reals.

  For a block of 512 query rows: the score matrix is the query block times the transpose of the 4096 key rows, times
  the scale, with the bottom element's word where the mask word is not zero; each row of it is turned into weights by
  the stable softmax (subtract the row's maximum, exponential, divide by the row's sum); the output block is the
  weights times the 4096 value rows. Narrowing a float format is the identity on extended reals, and a shape cast
  that adds or drops a leading unit axis reads the same entry.
-/
import proofs.«129973_j52381421142031_2_alg».proof.Proof.Gen.KernelIdeal.Skeleton
import proofs.«129973_j52381421142031_2_alg».proof.Proof.Spec
import proofs.«129973_j52381421142031_2_alg».proof.Proof.LibRowsDot
import proofs.«129973_j52381421142031_2_alg».proof.Proof.LibRowRead
import proofs.«129973_j52381421142031_2_alg».proof.Proof.LibRowMax
import Idealize.ShloMosaic.Lib.Pipeline.Value
import Idealize.ShloMosaic.Lib.ValueLayout

noncomputable section

namespace Cert.Attn.Body

open Idealize.ShloMosaic Idealize.ShloMosaic.ValueIdx Cert.KernelIdeal Cert.KernelIdeal.Gen

/-! ## The two contractions: which operand coordinates they name -/

theorem qk_l0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl

theorem qk_l1 (i : S512x4096.Idx) (q : dot_S512x128_S4096x128_S512x4096_1_1_0_0_n_n.contr.Idx) :
    (dot_S512x128_S4096x128_S512x4096_1_1_0_0_n_n.lhsIdx i q 1).val = (q ⟨0, by decide⟩).val :=
  dot_S512x128_S4096x128_S512x4096_1_1_0_0_n_n.lhsIdx_val_of_single rfl i q

theorem qk_r0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl

theorem qk_r1 (i : S512x4096.Idx) (q : dot_S512x128_S4096x128_S512x4096_1_1_0_0_n_n.contr.Idx) :
    (dot_S512x128_S4096x128_S512x4096_1_1_0_0_n_n.rhsIdx i q 1).val = (q ⟨0, by decide⟩).val :=
  dot_S512x128_S4096x128_S512x4096_1_1_0_0_n_n.rhsIdx_val_of_single rfl i q

theorem wv_l0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

theorem wv_l1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q

theorem wv_r0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q

theorem wv_r1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-! ## The softmax of the rows of a 512 × 4096 matrix -/

/-- The exponential of a matrix reads entry by entry. -/
theorem exp_apply {s : Shape} {φ : FTy} (x : FVec Ideal s φ) (i : s.Idx) : exp x i = Ideal.exp (x i) := rfl

/-- Each row's maximum, as a column, spread back over the row's lanes. -/
def rowMaxB (src : FVec Ideal S512x4096 .f32) : FVec Ideal S512x4096 .f32 :=
  broadcastTo S512x4096
    (shapeCast S512x1 (multiReduction (F := Ideal) .maximumf [1] S512 src 0xFF800000#32 reduces_S512x4096_S512 (.inl rfl) rfl)
      shapeCasts_S512_S512x1) broadcasts_S512x1_S512x4096

/-- Each row's sum, as a column, spread back over the row's lanes. -/
def rowSumB (src : FVec Ideal S512x4096 .f32) : FVec Ideal S512x4096 .f32 :=
  broadcastTo S512x4096
    (shapeCast S512x1 (multiReduction (F := Ideal) .add [1] S512 src 0x00000000#32 reduces_S512x4096_S512 (.inl rfl) rfl)
      shapeCasts_S512_S512x1) broadcasts_S512x1_S512x4096

/-- The rows' stable softmax, as the kernel computes it. -/
def rowSoftmax (src : FVec Ideal S512x4096 .f32) : FVec Ideal S512x4096 .f32 :=
  divf (exp (subf src (rowMaxB src))) (rowSumB (exp (subf src (rowMaxB src))))

theorem rowMaxB_apply (src : FVec Ideal S512x4096 .f32) (p : Fin 512) (k : Fin 4096) :
    rowMaxB src (ix2 p k) = (Finset.univ : Finset (Fin 4096)).fold max Cert.Attn.negInf (fun k' => src (ix2 p k')) :=
  (Cert.Lib.RowRead.broadcastTo_a1_ab_apply _ broadcasts_S512x1_S512x4096 p k).trans
    ((Cert.Lib.RowRead.shapeCast_a_a1_apply _ shapeCasts_S512_S512x1 p (0 : Fin 1)).trans
      (Cert.Lib.RowMax.rowMax_apply src 0xFF800000#32 reduces_S512x4096_S512 (.inl rfl) rfl p))

theorem rowSumB_apply (src : FVec Ideal S512x4096 .f32) (p : Fin 512) (k : Fin 4096) :
    rowSumB src (ix2 p k) = ∑ k' : Fin 4096, src (ix2 p k') :=
  (Cert.Lib.RowRead.broadcastTo_a1_ab_apply _ broadcasts_S512x1_S512x4096 p k).trans
    ((Cert.Lib.RowRead.shapeCast_a_a1_apply _ shapeCasts_S512_S512x1 p (0 : Fin 1)).trans
      (Cert.Lib.RowRead.rowSum_apply src 0x00000000#32 reduces_S512x4096_S512 (.inl rfl) rfl p))

/-- The shifted exponential at an entry. -/
theorem expShift_apply (src : FVec Ideal S512x4096 .f32) (p : Fin 512) (k : Fin 4096) :
    exp (subf src (rowMaxB src)) (ix2 p k)
      = Ideal.exp (src (ix2 p k) - (Finset.univ : Finset (Fin 4096)).fold max Cert.Attn.negInf (fun k' => src (ix2 p k'))) := by
  rw [exp_apply, subf_apply, rowMaxB_apply]

/-- The rows' softmax at (p, k) is the softmax of row p at k. -/
theorem rowSoftmax_apply (src : FVec Ideal S512x4096 .f32) (p : Fin 512) (k : Fin 4096) :
    rowSoftmax src (ix2 p k) = Cert.Attn.softmax (fun k' => src (ix2 p k')) k := by
  unfold rowSoftmax Cert.Attn.softmax
  rw [divf_apply, rowSumB_apply, expShift_apply]
  exact congrArg (Ideal.div _) (Finset.sum_congr rfl fun k' _ => expShift_apply src p k')

/-! ## The masked, scaled scores -/

/-- The scale's name denotes the scale. -/
theorem named_scale :
    Named.named (F := Ideal) Cert.KernelIdeal.κ "fold_c_1048576_11863283" (φ := .f32) 0x3DB504F3#32 = Cert.Attn.scale :=
  IdealRules.named_const.ideal_named_scalar _ _ _ _ rfl

/-- The score matrix of the block, as the kernel computes it. -/
def scores (v0 : Vec Ideal S1x512x128 .f32) (v3 : Vec Ideal S1x4096x128 .bf16) (v7 : Vec Ideal S1x512x4096 .i32) :
    FVec Ideal S512x4096 .f32 :=
  select (cmpi .ne (shapeCast S512x4096 v7 shapeCasts_S1x512x4096_S512x4096) (constantI S512x4096 32 0#32))
    (broadcast S512x4096 (Scalar.ofBits (F := Ideal) .f32 0xFF800000#32))
    (mulf
      (matmul dot_S512x128_S4096x128_S512x4096_1_1_0_0_n_n none
        (truncf .bf16 (shapeCast S512x128 v0 shapeCasts_S1x512x128_S512x128 : FVec Ideal S512x128 .f32) bitsLt_bf16_f32 :
          FVec Ideal S512x128 .bf16)
        (shapeCast S4096x128 v3 shapeCasts_S1x4096x128_S4096x128 : FVec Ideal S4096x128 .bf16)
        (constant (F := Ideal) S512x4096 .f32 0x00000000#32))
      (broadcast S512x4096 (Named.named (F := Ideal) Cert.KernelIdeal.κ "fold_c_1048576_11863283" (φ := .f32) 0x3DB504F3#32)))

/-- The masked, scaled score of query row p of the block against key row k. -/
def blockLogit (v0 : Vec Ideal S1x512x128 .f32) (v3 : Vec Ideal S1x4096x128 .bf16) (v7 : Vec Ideal S1x512x4096 .i32)
    (p : Fin 512) (k : Fin 4096) : EReal :=
  Scalar.select (IntOp.cmpi .ne (v7 (ix3 (0 : Fin 1) p k)) 0#32) Cert.Attn.negInf
    ((∑ d : Fin 128, v0 (ix3 (0 : Fin 1) p d) * v3 (ix3 (0 : Fin 1) k d)) * Cert.Attn.scale)

/-- The query block times the transposed key rows, at (p, k). -/
theorem qk_apply (q : FVec Ideal S512x128 .bf16) (ks : FVec Ideal S4096x128 .bf16) (p : Fin 512) (k : Fin 4096) :
    matmul dot_S512x128_S4096x128_S512x4096_1_1_0_0_n_n none q ks (constant (F := Ideal) S512x4096 .f32 0x00000000#32) (ix2 p k)
      = ∑ d : Fin 128, q (ix2 p d) * ks (ix2 k d) :=
  Cert.Lib.RowsDot.matmul_zero_apply dot_S512x128_S4096x128_S512x4096_1_1_0_0_n_n rfl rfl qk_l0 qk_l1 qk_r0 qk_r1 none q ks p k

theorem scores_apply (v0 : Vec Ideal S1x512x128 .f32) (v3 : Vec Ideal S1x4096x128 .bf16) (v7 : Vec Ideal S1x512x4096 .i32)
    (p : Fin 512) (k : Fin 4096) : scores v0 v3 v7 (ix2 p k) = blockLogit v0 v3 v7 p k := by
  unfold scores blockLogit
  rw [select_apply, mulf_apply, broadcast_apply, broadcast_apply, qk_apply, named_scale]
  refine congrArg₂ (fun c x => Scalar.select c Cert.Attn.negInf (x * Cert.Attn.scale)) ?_ ?_
  · show IntOp.cmpi .ne (shapeCast S512x4096 v7 shapeCasts_S1x512x4096_S512x4096 (ix2 p k)) 0#32 = _
    rw [shapeCast_1ab_ab_apply]
  · refine Finset.sum_congr rfl fun d _ => ?_
    rw [truncf_apply, shapeCast_1ab_ab_apply, shapeCast_1ab_ab_apply]

/-! ## The two stored values -/

/-- The kernel's weights are the rows' softmax of its score matrix. -/
theorem pay1_eq (v0 : Vec Ideal S1x512x128 .f32) (v3 : Vec Ideal S1x4096x128 .bf16) (v7 : Vec Ideal S1x512x4096 .i32) :
    k1_pay1 (F := Ideal) v0 v3 v7 = rowSoftmax (scores v0 v3 v7) := rfl

theorem pay1_apply (v0 : Vec Ideal S1x512x128 .f32) (v3 : Vec Ideal S1x4096x128 .bf16) (v7 : Vec Ideal S1x512x4096 .i32)
    (p : Fin 512) (k : Fin 4096) :
    k1_pay1 (F := Ideal) v0 v3 v7 (ix2 p k) = Cert.Attn.softmax (blockLogit v0 v3 v7 p) k := by
  rw [pay1_eq, rowSoftmax_apply]
  exact congrArg (fun f => Cert.Attn.softmax f k) (funext fun k' => scores_apply v0 v3 v7 p k')

/-- The stored weights at (0, p, k): the softmax of row p of the block's scores, at k. -/
theorem weights_payload (v0 : Vec Ideal S1x512x128 .f32) (v3 : Vec Ideal S1x4096x128 .bf16) (v7 : Vec Ideal S1x512x4096 .i32)
    (p : Fin 512) (k : Fin 4096) :
    k1_pay2 (F := Ideal) v0 v3 v7 (ix3 (0 : Fin 1) p k) = Cert.Attn.softmax (blockLogit v0 v3 v7 p) k := by
  unfold k1_pay2
  rw [shapeCast_ab_1ab_apply, pay1_apply]

/-- The weights times the value rows, at (p, e). -/
theorem wv_apply (w : FVec Ideal S512x4096 .bf16) (vs : FVec Ideal S4096x128 .bf16) (p : Fin 512) (e : Fin 128) :
    matmul dot_S512x4096_S4096x128_S512x128_1_0_0_1_n_n none w vs (constant (F := Ideal) S512x128 .f32 0x00000000#32) (ix2 p e)
      = ∑ k : Fin 4096, w (ix2 p k) * vs (ix2 k e) :=
  Cert.Lib.RowRead.matmul_zero_apply dot_S512x4096_S4096x128_S512x128_1_0_0_1_n_n rfl rfl wv_l0 wv_l1 wv_r0 wv_r1 none w vs p e

/-- The stored output at (0, p, e): the value rows weighted by the softmax of row p of the block's scores. -/
theorem out_payload (v0 : Vec Ideal S1x512x128 .f32) (v3 : Vec Ideal S1x4096x128 .bf16) (v5 : Vec Ideal S1x4096x128 .bf16)
    (v7 : Vec Ideal S1x512x4096 .i32) (p : Fin 512) (e : Fin 128) :
    k1_pay3 (F := Ideal) v0 v3 v5 v7 (ix3 (0 : Fin 1) p e)
      = ∑ k : Fin 4096, Cert.Attn.softmax (blockLogit v0 v3 v7 p) k * v5 (ix3 (0 : Fin 1) k e) := by
  unfold k1_pay3
  rw [shapeCast_ab_1ab_apply, wv_apply]
  refine Finset.sum_congr rfl fun k _ => ?_
  rw [truncf_apply, pay1_apply, shapeCast_1ab_ab_apply]

end Cert.Attn.Body

end
-- ==== Proof.Region1.lean ====
/-
  The second region: the attention kernel's two result arrays, as whole-array functions of what the region finds.

  The grid has 4 × 8 points; point (b, qi) stages query rows 512 qi … 512 qi + 511 of batch b, all 4096 key rows and
  all 4096 value rows of batch b, and the same query rows of the mask, and writes back the same rows of the output and
  of the weights. A block's logit of its query row p against key row k is the logit of query row 512 qi + p of batch b
  against key row k, so the row of weights a block stores is the softmax of that row of logits, and the row of
  outputs is that softmax's weighted sum of the value rows of batch b. The blocks of the 32 points tile each result
  array, so every entry is covered.
-/
import proofs.«129973_j52381421142031_2_alg».proof.Proof.Gen.KernelIdeal.Frame
import proofs.«129973_j52381421142031_2_alg».proof.Proof.Spec
import proofs.«129973_j52381421142031_2_alg».proof.Proof.AttnBody
import Idealize.ShloMosaic.Lib.Pipeline.Value
import Idealize.ShloMosaic.Lib.ValueIdx

set_option maxRecDepth 16384

noncomputable section

namespace Cert.Attn.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The masked, scaled score of query row q against key row k of batch b, from the arrays the region finds: the
    input rows, the projected key rows, and the mask as words (a nonzero word masks). -/
def regLogit (X Kk : S4x4096x128.Idx → EReal) (M : S4x4096x4096.Idx → BitVec 32) (b : Fin 4) (q k : Fin 4096) : EReal :=
  Scalar.select (IntOp.cmpi .ne (M (ix3 b q k)) 0#32) Cert.Attn.negInf
    ((∑ d : Fin 128, X (ix3 b q d) * Kk (ix3 b k d)) * Cert.Attn.scale)

/-- The attention weights as an array [4, 4096, 4096]: the softmax of each row of logits. -/
def regAttn (X Kk : S4x4096x128.Idx → EReal) (M : S4x4096x4096.Idx → BitVec 32) : S4x4096x4096.Idx → EReal :=
  fun i => Cert.Attn.softmax (regLogit X Kk M ⟨(i 0).val, (i 0).isLt⟩ ⟨(i 1).val, (i 1).isLt⟩) ⟨(i 2).val, (i 2).isLt⟩

/-- The output as an array [4, 4096, 128]: the value rows weighted by the attention weights. -/
def regOut (X Kk Vv : S4x4096x128.Idx → EReal) (M : S4x4096x4096.Idx → BitVec 32) : S4x4096x128.Idx → EReal :=
  fun i => ∑ k : Fin 4096, Cert.Attn.softmax (regLogit X Kk M ⟨(i 0).val, (i 0).isLt⟩ ⟨(i 1).val, (i 1).isLt⟩) k
    * Vv (ix3 (⟨(i 0).val, (i 0).isLt⟩ : Fin 4) k (⟨(i 2).val, (i 2).isLt⟩ : Fin 128))

/-- A block's row of logits is the array's row of logits, when the block's entries are the array's entries of batch b
    and, for the query rows, of row q. -/
theorem blockLogit_eq (v0 : Vec Ideal S1x512x128 .f32) (v3 : Vec Ideal S1x4096x128 .bf16) (v7 : Vec Ideal S1x512x4096 .i32)
    (X Kk : S4x4096x128.Idx → EReal) (M : S4x4096x4096.Idx → BitVec 32) (b : Fin 4) (q : Fin 4096) (p : Fin 512)
    (h0 : ∀ d : Fin 128, v0 (ix3 (0 : Fin 1) p d) = X (ix3 b q d))
    (h1 : ∀ (k : Fin 4096) (d : Fin 128), v3 (ix3 (0 : Fin 1) k d) = Kk (ix3 b k d))
    (h3 : ∀ k : Fin 4096, v7 (ix3 (0 : Fin 1) p k) = M (ix3 b q k)) :
    Cert.Attn.Body.blockLogit v0 v3 v7 p = regLogit X Kk M b q := by
  funext k
  unfold Cert.Attn.Body.blockLogit regLogit
  rw [h3 k, Finset.sum_congr rfl fun d _ => by rw [h0 d, h1 k d]]

/-- A block's stored weight is the array's weight at the index i the block's entry sits at, when the block's rows are
    the array's rows at i's batch and query row and the entry's lane is i's key. -/
theorem weights_block (v0 : Vec Ideal S1x512x128 .f32) (v3 : Vec Ideal S1x4096x128 .bf16) (v7 : Vec Ideal S1x512x4096 .i32)
    (X Kk : S4x4096x128.Idx → EReal) (M : S4x4096x4096.Idx → BitVec 32) (i : S4x4096x4096.Idx) (p : Fin 512) (k : Fin 4096)
    (h0 : ∀ d : Fin 128, v0 (ix3 (0 : Fin 1) p d)
      = X (ix3 (⟨(i 0).val, (i 0).isLt⟩ : Fin 4) (⟨(i 1).val, (i 1).isLt⟩ : Fin 4096) d))
    (h1 : ∀ (k' : Fin 4096) (d : Fin 128), v3 (ix3 (0 : Fin 1) k' d) = Kk (ix3 (⟨(i 0).val, (i 0).isLt⟩ : Fin 4) k' d))
    (h3 : ∀ k' : Fin 4096, v7 (ix3 (0 : Fin 1) p k')
      = M (ix3 (⟨(i 0).val, (i 0).isLt⟩ : Fin 4) (⟨(i 1).val, (i 1).isLt⟩ : Fin 4096) k'))
    (hk : k.val = (i 2).val) :
    Cert.Attn.softmax (Cert.Attn.Body.blockLogit v0 v3 v7 p) k = regAttn X Kk M i := by
  unfold regAttn
  rw [blockLogit_eq v0 v3 v7 X Kk M _ _ p h0 h1 h3]
  exact congrArg _ (Fin.ext hk)

/-- A block's stored output is the array's output at the index i the block's entry sits at, when moreover the block's
    value rows are the array's value rows of i's batch at i's feature. -/
theorem out_block (v0 : Vec Ideal S1x512x128 .f32) (v3 v5 : Vec Ideal S1x4096x128 .bf16) (v7 : Vec Ideal S1x512x4096 .i32)
    (X Kk Vv : S4x4096x128.Idx → EReal) (M : S4x4096x4096.Idx → BitVec 32) (i : S4x4096x128.Idx) (p : Fin 512) (e : Fin 128)
    (h0 : ∀ d : Fin 128, v0 (ix3 (0 : Fin 1) p d)
      = X (ix3 (⟨(i 0).val, (i 0).isLt⟩ : Fin 4) (⟨(i 1).val, (i 1).isLt⟩ : Fin 4096) d))
    (h1 : ∀ (k' : Fin 4096) (d : Fin 128), v3 (ix3 (0 : Fin 1) k' d) = Kk (ix3 (⟨(i 0).val, (i 0).isLt⟩ : Fin 4) k' d))
    (h3 : ∀ k' : Fin 4096, v7 (ix3 (0 : Fin 1) p k')
      = M (ix3 (⟨(i 0).val, (i 0).isLt⟩ : Fin 4) (⟨(i 1).val, (i 1).isLt⟩ : Fin 4096) k'))
    (h5 : ∀ k' : Fin 4096, v5 (ix3 (0 : Fin 1) k' e)
      = Vv (ix3 (⟨(i 0).val, (i 0).isLt⟩ : Fin 4) k' (⟨(i 2).val, (i 2).isLt⟩ : Fin 128))) :
    ∑ k : Fin 4096, Cert.Attn.softmax (Cert.Attn.Body.blockLogit v0 v3 v7 p) k * v5 (ix3 (0 : Fin 1) k e)
      = regOut X Kk Vv M i := by
  unfold regOut
  rw [blockLogit_eq v0 v3 v7 X Kk M _ _ p h0 h1 h3]
  exact Finset.sum_congr rfl fun k' _ => by rw [h5 k']

theorem zero_offsets : (![0, 0, 0] : Fin 3 → Nat) = fun _ => 0 := funext fun a => by fin_cases a <;> rfl

/-- The printed index maps over the grid: the query rows, the mask rows and both results sit at block (b, qi, 0), the
    key rows and the value rows at block (b, 0, 0). -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = win1_5.index t (1 : Fin 3)
    ∧ win1_3.index t (2 : Fin 3) = 0
    ∧ win1_4.index t (0 : Fin 3) = win1_5.index t (0 : Fin 3) ∧ win1_4.index t (1 : Fin 3) = win1_5.index t (1 : Fin 3)
    ∧ win1_4.index t (2 : Fin 3) = 0
    ∧ win1_5.index t (2 : Fin 3) = 0 ∧ win1_5.index t (0 : Fin 3) ≤ 3 ∧ win1_5.index t (1 : Fin 3) ≤ 7 :=
  (by decide +kernel : ∀ t : Fin grid1.N, _)

/-- Every block of the weights is some point's. -/
theorem idx_onto5 : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- Every block of the output is some point's. -/
theorem idx_onto4 : ∀ (q0 : Fin 4) (q1 : Fin 8), ∃ t : Fin cfg1.N, win1_4.index t = ![q0.val, q1.val, 0] :=
  (by decide +kernel : ∀ (q0 : Fin 4) (q1 : Fin 8), ∃ t : Fin grid1.N, win1_4.index t = ![q0.val, q1.val, 0])

/-! ## The weights -/

/-- What point t writes back to the weights: its rows of the softmax of the logits. -/
theorem flushed5_eq (c : Dev nD) (t : Fin cfg1.N) :
    (dat1 V c).flushed 5 t
      = ((cfg1.win 5).blk t).view.read (Elt Ideal) (regAttn (V c main_arg0) (V c main_v4) (V c main_v6)) := by
  show (cfg1.win 5).cut (grid1.coords t) ((dat1 V c).after 5 t) = _
  rw [after1_5]
  unfold out1_5
  rw [View.canon_unit_zero zero_offsets]
  simp only [View.ld_unit_zero (S := S1x512x128) zero_offsets, View.ld_unit_zero (S := S1x4096x128) zero_offsets,
    View.ld_unit_zero (S := S1x512x4096) zero_offsets]
  obtain ⟨e00, e01, e02, e10, e11, e12, e20, e21, e22, e30, e31, e32, e40, e41, e42, e52, e50, e51⟩ := idx_facts t
  funext j
  obtain ⟨u, p, k, rfl⟩ : ∃ (u : Fin 1) (p : Fin 512) (k : Fin 4096), j = ix3 u p k := ⟨j 0, j 1, j 2, eq_ix3 j⟩
  obtain rfl : u = 0 := Subsingleton.elim _ _
  refine (Cert.Attn.Body.weights_payload (iblk1 V c 0 t) (iblk1 V c 1 t) (iblk1 V c 3 t) p k).trans ?_
  generalize hG : regAttn (V c main_arg0) (V c main_v4) (V c main_v6) = G
  show _ = G (((cfg1.win 5).blk t).view.emb (ix3 (0 : Fin 1) p k))
  rw [← hG]
  refine weights_block (iblk1 V c 0 t) (iblk1 V c 1 t) (iblk1 V c 3 t) (V c main_arg0) (V c main_v4) (V c main_v6)
    (((cfg1.win 5).blk t).view.emb (ix3 (0 : Fin 1) p k)) p k (fun d => ?_) (fun k' d => ?_) (fun k' => ?_) ?_
  · -- the query rows
    show V c main_arg0 (((cfg1.win 0).blk t).view.emb (ix3 (0 : Fin 1) p d)) = _
    refine congrArg (V c main_arg0) (funext fun a => Fin.ext ?_)
    match a with
    | ⟨0, _⟩ => show win1_0.index t (0 : Fin 3) * 1 + 1 * 0 = win1_5.index t (0 : Fin 3) * 1 + 1 * 0; omega
    | ⟨1, _⟩ => show win1_0.index t (1 : Fin 3) * 512 + 1 * p.val = win1_5.index t (1 : Fin 3) * 512 + 1 * p.val; omega
    | ⟨2, _⟩ => show win1_0.index t (2 : Fin 3) * 128 + 1 * d.val = d.val; omega
  · -- the key rows
    show V c main_v4 (((cfg1.win 1).blk t).view.emb (ix3 (0 : Fin 1) k' d)) = _
    refine congrArg (V c main_v4) (funext fun a => Fin.ext ?_)
    match a with
    | ⟨0, _⟩ => show win1_1.index t (0 : Fin 3) * 1 + 1 * 0 = win1_5.index t (0 : Fin 3) * 1 + 1 * 0; omega
    | ⟨1, _⟩ => show win1_1.index t (1 : Fin 3) * 4096 + 1 * k'.val = k'.val; omega
    | ⟨2, _⟩ => show win1_1.index t (2 : Fin 3) * 128 + 1 * d.val = d.val; omega
  · -- the mask rows
    show V c main_v6 (((cfg1.win 3).blk t).view.emb (ix3 (0 : Fin 1) p k')) = _
    refine congrArg (V c main_v6) (funext fun a => Fin.ext ?_)
    match a with
    | ⟨0, _⟩ => show win1_3.index t (0 : Fin 3) * 1 + 1 * 0 = win1_5.index t (0 : Fin 3) * 1 + 1 * 0; omega
    | ⟨1, _⟩ => show win1_3.index t (1 : Fin 3) * 512 + 1 * p.val = win1_5.index t (1 : Fin 3) * 512 + 1 * p.val; omega
    | ⟨2, _⟩ => show win1_3.index t (2 : Fin 3) * 4096 + 1 * k'.val = k'.val; omega
  · -- the lane
    show k.val = win1_5.index t (2 : Fin 3) * 4096 + 1 * k.val; omega

/-- An index of the weights is in point t's block iff each coordinate is in the block's range on its axis. -/
theorem mem_blk5 (t : Fin cfg1.N) (i : S4x4096x4096.Idx) :
    i ∈ ((cfg1.win 5).blk t).view.set ↔ ∀ a : Fin 3, win1_5.index t a * S1x512x4096.size a ≤ (i a).val
      ∧ (i a).val < win1_5.index t a * S1x512x4096.size a + S1x512x4096.size a := by
  show i ∈ ((View.whole main_v7_1).slice (win1_5.rect t)).set ↔ _
  rw [View.set_slice_whole, Rect.mem_set_unit]
  exact Iff.rfl

/-- Every index of the weights is in the block of the point of its batch and of its group of 512 query rows. -/
theorem cover5 (i : S4x4096x4096.Idx) :
    ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 4096 := (i 2).isLt
  obtain ⟨t, ht⟩ := idx_onto5 ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 4096 ≤ (i 2).val ∧ (i 2).val < win1_5.index t (2 : Fin 3) * 4096 + 4096; omega

/-- The weights array after the region: the softmax of every row of logits. -/
theorem final5 (c : Dev nD) :
    (dat1 V c).arrAt 5 cfg1.N = regAttn (V c main_arg0) (V c main_v4) (V c main_v6) :=
  (dat1 V c).arrAt_eq_of_cover 5 (regAttn (V c main_arg0) (V c main_v4) (V c main_v6))
    (fun t _ => flushed5_eq V c t) cover5

/-! ## The output -/

/-- What point t writes back to the output: its rows of the weighted sums of the value rows. -/
theorem flushed4_eq (c : Dev nD) (t : Fin cfg1.N) :
    (dat1 V c).flushed 4 t
      = ((cfg1.win 4).blk t).view.read (Elt Ideal) (regOut (V c main_arg0) (V c main_v4) (V c main_v5) (V c main_v6)) := by
  show (cfg1.win 4).cut (grid1.coords t) ((dat1 V c).after 4 t) = _
  rw [after1_4]
  unfold out1_4
  rw [View.canon_unit_zero zero_offsets]
  simp only [View.ld_unit_zero (S := S1x512x128) zero_offsets, View.ld_unit_zero (S := S1x4096x128) zero_offsets,
    View.ld_unit_zero (S := S1x512x4096) zero_offsets]
  obtain ⟨e00, e01, e02, e10, e11, e12, e20, e21, e22, e30, e31, e32, e40, e41, e42, e52, e50, e51⟩ := idx_facts t
  funext j
  obtain ⟨u, p, e, rfl⟩ : ∃ (u : Fin 1) (p : Fin 512) (e : Fin 128), j = ix3 u p e := ⟨j 0, j 1, j 2, eq_ix3 j⟩
  obtain rfl : u = 0 := Subsingleton.elim _ _
  refine (Cert.Attn.Body.out_payload (iblk1 V c 0 t) (iblk1 V c 1 t) (iblk1 V c 2 t) (iblk1 V c 3 t) p e).trans ?_
  generalize hG : regOut (V c main_arg0) (V c main_v4) (V c main_v5) (V c main_v6) = G
  show _ = G (((cfg1.win 4).blk t).view.emb (ix3 (0 : Fin 1) p e))
  rw [← hG]
  refine out_block (iblk1 V c 0 t) (iblk1 V c 1 t) (iblk1 V c 2 t) (iblk1 V c 3 t) (V c main_arg0) (V c main_v4) (V c main_v5)
    (V c main_v6) (((cfg1.win 4).blk t).view.emb (ix3 (0 : Fin 1) p e)) p e (fun d => ?_) (fun k' d => ?_) (fun k' => ?_)
    (fun k' => ?_)
  · -- the query rows
    show V c main_arg0 (((cfg1.win 0).blk t).view.emb (ix3 (0 : Fin 1) p d)) = _
    refine congrArg (V c main_arg0) (funext fun a => Fin.ext ?_)
    match a with
    | ⟨0, _⟩ => show win1_0.index t (0 : Fin 3) * 1 + 1 * 0 = win1_4.index t (0 : Fin 3) * 1 + 1 * 0; omega
    | ⟨1, _⟩ => show win1_0.index t (1 : Fin 3) * 512 + 1 * p.val = win1_4.index t (1 : Fin 3) * 512 + 1 * p.val; omega
    | ⟨2, _⟩ => show win1_0.index t (2 : Fin 3) * 128 + 1 * d.val = d.val; omega
  · -- the key rows
    show V c main_v4 (((cfg1.win 1).blk t).view.emb (ix3 (0 : Fin 1) k' d)) = _
    refine congrArg (V c main_v4) (funext fun a => Fin.ext ?_)
    match a with
    | ⟨0, _⟩ => show win1_1.index t (0 : Fin 3) * 1 + 1 * 0 = win1_4.index t (0 : Fin 3) * 1 + 1 * 0; omega
    | ⟨1, _⟩ => show win1_1.index t (1 : Fin 3) * 4096 + 1 * k'.val = k'.val; omega
    | ⟨2, _⟩ => show win1_1.index t (2 : Fin 3) * 128 + 1 * d.val = d.val; omega
  · -- the mask rows
    show V c main_v6 (((cfg1.win 3).blk t).view.emb (ix3 (0 : Fin 1) p k')) = _
    refine congrArg (V c main_v6) (funext fun a => Fin.ext ?_)
    match a with
    | ⟨0, _⟩ => show win1_3.index t (0 : Fin 3) * 1 + 1 * 0 = win1_4.index t (0 : Fin 3) * 1 + 1 * 0; omega
    | ⟨1, _⟩ => show win1_3.index t (1 : Fin 3) * 512 + 1 * p.val = win1_4.index t (1 : Fin 3) * 512 + 1 * p.val; omega
    | ⟨2, _⟩ => show win1_3.index t (2 : Fin 3) * 4096 + 1 * k'.val = k'.val; omega
  · -- the value rows
    show V c main_v5 (((cfg1.win 2).blk t).view.emb (ix3 (0 : Fin 1) k' e)) = _
    refine congrArg (V c main_v5) (funext fun a => Fin.ext ?_)
    match a with
    | ⟨0, _⟩ => show win1_2.index t (0 : Fin 3) * 1 + 1 * 0 = win1_4.index t (0 : Fin 3) * 1 + 1 * 0; omega
    | ⟨1, _⟩ => show win1_2.index t (1 : Fin 3) * 4096 + 1 * k'.val = k'.val; omega
    | ⟨2, _⟩ => show win1_2.index t (2 : Fin 3) * 128 + 1 * e.val = win1_4.index t (2 : Fin 3) * 128 + 1 * e.val; omega

/-- An index of the output is in point t's block iff each coordinate is in the block's range on its axis. -/
theorem mem_blk4 (t : Fin cfg1.N) (i : S4x4096x128.Idx) :
    i ∈ ((cfg1.win 4).blk t).view.set ↔ ∀ a : Fin 3, win1_4.index t a * S1x512x128.size a ≤ (i a).val
      ∧ (i a).val < win1_4.index t a * S1x512x128.size a + S1x512x128.size a := by
  show i ∈ ((View.whole main_v7_0).slice (win1_4.rect t)).set ↔ _
  rw [View.set_slice_whole, Rect.mem_set_unit]
  exact Iff.rfl

/-- Every index of the output is in the block of the point of its batch and of its group of 512 query rows. -/
theorem cover4 (i : S4x4096x128.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 128 := (i 2).isLt
  obtain ⟨t, ht⟩ := idx_onto4 ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- The output array after the region: every row the weighted sum of the value rows of its batch. -/
theorem final4 (c : Dev nD) :
    (dat1 V c).arrAt 4 cfg1.N = regOut (V c main_arg0) (V c main_v4) (V c main_v5) (V c main_v6) :=
  (dat1 V c).arrAt_eq_of_cover 4 (regOut (V c main_arg0) (V c main_v4) (V c main_v5) (V c main_v6))
    (fun t _ => flushed4_eq V c t) cover4

end Cert.Attn.Region1

end
-- ==== Proof.KernelValue.lean ====
/-
  The idealized kernel program's two result arrays as functions of its four arguments.

  The first region multiplies the matrix of all input rows by each transposed weight matrix; re-laid by batches
  that is the projection of the specification, key b s e = ∑ d, x b s d · w e d. The second region finds the input
  as launched, those projections as its keys and values, and the mask widened to words — a word differs from zero
  exactly when its bit is set —, so its two result arrays are the specification's attention weights and output.
-/
import proofs.«129973_j52381421142031_2_alg».proof.Proof.Gen.KernelIdeal.Frame
import proofs.«129973_j52381421142031_2_alg».proof.Proof.Spec
import proofs.«129973_j52381421142031_2_alg».proof.Proof.HostReads
import proofs.«129973_j52381421142031_2_alg».proof.Proof.Region0
import proofs.«129973_j52381421142031_2_alg».proof.Proof.Region1

set_option maxRecDepth 16384

noncomputable section

namespace Cert.Attn.KernelValue

open Cert.KernelIdeal Cert.KernelIdeal.Gen
open Idealize.ShloMosaic Idealize.ShloMosaic.TcCoe Idealize.SL.Sem Idealize.ShloMosaic.ValueIdx
open Cert.Attn

variable (m : (ℓ : Loc nD τ sig) → Buf (Elt Ideal) ℓ) (ρ : Dev nD → PrngReg)

/-- A mask bit widened to a word differs from zero exactly when the bit is set. -/
theorem word_ne_zero (b : BitVec 1) : IntOp.cmpi .ne (b.setWidth 32) 0#32 = b := by
  rcases BitVec.eq_zero_or_eq_one b with h | h <;> subst h <;> rfl

/-- The keys the second region finds are the first projection of the input. -/
theorem keys_eq (c : Dev nD) (b : Fin 4) (s : Fin 4096) (e : Fin 128) :
    (V3 m ρ c main_v4 : S4x4096x128.Idx → EReal) (ix3 b s e)
      = proj (m ((c : Thread nD τ).loc main_arg0)) (m ((c : Thread nD τ).loc main_arg1)) b s e := by
  have hb : b.val < 4 := b.isLt
  have hs : s.val < 4096 := s.isLt
  rw [HostReads.keys_apply m ρ c b s e ⟨b.val * 4096 + s.val, by omega⟩ rfl, Region0.final3 (V1 m ρ) c, Region0.rowsTimes_ix2]
  unfold proj
  show @Eq EReal _ _
  refine Finset.sum_congr rfl fun d _ => ?_
  rw [HostReads.rows_apply m ρ c b s d ⟨b.val * 4096 + s.val, by omega⟩ rfl, HostReads.wkT_apply]

/-- The values the second region finds are the second projection of the input. -/
theorem vals_eq (c : Dev nD) (b : Fin 4) (s : Fin 4096) (e : Fin 128) :
    (V3 m ρ c main_v5 : S4x4096x128.Idx → EReal) (ix3 b s e)
      = proj (m ((c : Thread nD τ).loc main_arg0)) (m ((c : Thread nD τ).loc main_arg2)) b s e := by
  have hb : b.val < 4 := b.isLt
  have hs : s.val < 4096 := s.isLt
  rw [HostReads.vals_apply m ρ c b s e ⟨b.val * 4096 + s.val, by omega⟩ rfl, Region0.final4 (V1 m ρ) c, Region0.rowsTimes_ix2]
  unfold proj
  show @Eq EReal _ _
  refine Finset.sum_congr rfl fun d _ => ?_
  rw [HostReads.rows_apply m ρ c b s d ⟨b.val * 4096 + s.val, by omega⟩ rfl, HostReads.wvT_apply]

/-- The second region's masked, scaled scores are the specification's. -/
theorem logit_eq (c : Dev nD) (b : Fin 4) (q : Fin 4096) :
    Region1.regLogit (V3 m ρ c main_arg0) (V3 m ρ c main_v4) (V3 m ρ c main_v6) b q
      = logit (m ((c : Thread nD τ).loc main_arg0)) (m ((c : Thread nD τ).loc main_arg1)) (m ((c : Thread nD τ).loc main_arg3)) b q := by
  funext k
  unfold Region1.regLogit logit
  rw [HostReads.maskWords_apply, word_ne_zero, HostReads.input_kept]
  refine congrArg (fun z => Scalar.select _ negInf (z * scale)) ?_
  refine Finset.sum_congr rfl fun d _ => ?_
  rw [keys_eq]

/-- The attention-weight result of the program. -/
theorem weights_result (c : Dev nD) :
    W4 m ρ c (Proc.devRef .tc main_v7_1)
      = attnArr (m ((c : Thread nD τ).loc main_arg0)) (m ((c : Thread nD τ).loc main_arg1)) (m ((c : Thread nD τ).loc main_arg3)) := by
  refine (W4_arr m ρ c 5).trans ?_
  rw [Region1.final5 (V3 m ρ) c]
  funext i
  unfold Region1.regAttn attnArr attn
  rw [logit_eq]

/-- The output result of the program. -/
theorem output_result (c : Dev nD) :
    W4 m ρ c (Proc.devRef .tc main_v7_0)
      = outArr (m ((c : Thread nD τ).loc main_arg0)) (m ((c : Thread nD τ).loc main_arg1)) (m ((c : Thread nD τ).loc main_arg2)) (m ((c : Thread nD τ).loc main_arg3)) := by
  refine (W4_arr m ρ c 4).trans ?_
  rw [Region1.final4 (V3 m ρ) c]
  funext i
  unfold Region1.regOut outArr out attn
  rw [logit_eq]
  refine Finset.sum_congr rfl fun k _ => ?_
  rw [vals_eq]

end Cert.Attn.KernelValue

end
-- ==== Proof.RefIsAttn.lean ====
/-
  The reference program computes single-head attention under a Boolean mask.

  Each stage of the reference, read at an index built from its coordinates, is the corresponding quantity of the
  specification: the two projections are inner products of an input row with a weight row; the score is the inner
  product of a query row with a projected key row, and dividing it by the divisor's word is multiplying it by the
  scale; the masked score is the logit; the row maximum, a fold of max from the bottom element's word followed by one
  more max with that word, is the fold itself, since a fold of max is never below its start; the exponentials, their
  row sum from the zero word, and the quotient are the stable softmax; the output is the weighted sum of value rows.
-/
import proofs.«129973_j52381421142031_2_alg».proof.Proof.Gen.ReferenceIdeal.Read
import proofs.«129973_j52381421142031_2_alg».proof.Proof.Spec

noncomputable section

namespace Cert.Attn.Ref

open Cert.ReferenceIdeal Cert.ReferenceIdeal.Gen Cert.ReferenceIdeal.Read Idealize.ShloMosaic Idealize.ShloMosaic.ValueIdx
open Cert.Attn

/-! ## The two projections -/

/-- The key projection at (b, s, e) is the inner product of input row (b, s) with weight row e. -/
theorem key_ix3 (x0 : (⟨S4x4096x128, .f32⟩ : BufTy).Contents (Elt Ideal)) (x1 : (⟨S128x128, .f32⟩ : BufTy).Contents (Elt Ideal))
    (b : Fin 4) (s : Fin 4096) (e : Fin 128) :
    val_main_v0 (F := Ideal) x0 x1 (ix3 b s e) = proj x0 x1 b s e := by
  rw [val_main_v0_apply]
  unfold proj
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

/-- The value projection at (b, s, e) is the inner product of input row (b, s) with weight row e. -/
theorem val_ix3 (x0 : (⟨S4x4096x128, .f32⟩ : BufTy).Contents (Elt Ideal)) (x2 : (⟨S128x128, .f32⟩ : BufTy).Contents (Elt Ideal))
    (b : Fin 4) (s : Fin 4096) (e : Fin 128) :
    val_main_v1 (F := Ideal) x0 x2 (ix3 b s e) = proj x0 x2 b s e := by
  rw [val_main_v1_apply]
  unfold proj
  refine Finset.sum_congr rfl fun d _ => ?_
  have el : lidx_main_v1 (ix3 b s e) d = ix3 b s d :=
    funext fun a => Fin.ext (by match a with | ⟨0, _⟩ => rfl | ⟨1, _⟩ => rfl | ⟨2, _⟩ => rfl)
  have er : ridx_main_v1 (ix3 b s e) d = ix2 e d :=
    funext fun a => Fin.ext (by match a with | ⟨0, _⟩ => rfl | ⟨1, _⟩ => rfl)
  rw [el, er]

/-! ## The score and the logit -/

/-- The score of query row q against key row k is the inner product of the query row with the projected key row. -/
theorem score_ix3 (x0 : (⟨S4x4096x128, .f32⟩ : BufTy).Contents (Elt Ideal)) (x1 : (⟨S128x128, .f32⟩ : BufTy).Contents (Elt Ideal))
    (b : Fin 4) (q k : Fin 4096) :
    val_main_v2 (F := Ideal) x0 x1 (ix3 b q k) = ∑ d : Fin 128, x0 (ix3 b q d) * proj x0 x1 b k d := by
  rw [val_main_v2_apply]
  refine Finset.sum_congr rfl fun d _ => ?_
  have el : lidx_main_v2 (ix3 b q k) d = ix3 b q d :=
    funext fun a => Fin.ext (by match a with | ⟨0, _⟩ => rfl | ⟨1, _⟩ => rfl | ⟨2, _⟩ => rfl)
  have er : ridx_main_v2 (ix3 b q k) d = ix3 b k d :=
    funext fun a => Fin.ext (by match a with | ⟨0, _⟩ => rfl | ⟨1, _⟩ => rfl | ⟨2, _⟩ => rfl)
  rw [el, er, key_ix3]

/-- The masked, scaled score is the logit. -/
theorem logit_ix3 (x0 : (⟨S4x4096x128, .f32⟩ : BufTy).Contents (Elt Ideal)) (x1 : (⟨S128x128, .f32⟩ : BufTy).Contents (Elt Ideal))
    (x3 : (⟨S4x4096x4096, .i1⟩ : BufTy).Contents (Elt Ideal)) (b : Fin 4) (q k : Fin 4096) :
    val_main_v5 (F := Ideal) x0 x1 x3 (ix3 b q k) = logit x0 x1 x3 b q k := by
  rw [val_main_v5_apply, val_main_call0_v1_apply, val_main_call0_v0_apply, val_main_cst_0_apply, val_main_v4_apply,
    val_main_v3_apply, val_main_cst_apply, score_ix3]
  simp only [Ideal.ofBits_def, Ideal.hostDivf_def]
  rw [div_divisor]
  rfl

/-! ## The row maximum -/

/-- Row (b, q) of the array [4, 4096, 4096] with lane k put back is (b, q, k). -/
theorem lift_lane (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- The reference's row maximum is the fold of max, from the bottom element's word, over the logits of the row. -/
theorem rowmax_ix2 (x0 : (⟨S4x4096x128, .f32⟩ : BufTy).Contents (Elt Ideal)) (x1 : (⟨S128x128, .f32⟩ : BufTy).Contents (Elt Ideal))
    (x3 : (⟨S4x4096x4096, .i1⟩ : BufTy).Contents (Elt Ideal)) (b : Fin 4) (q : Fin 4096) :
    val_main_v8 (F := Ideal) x0 x1 x3 (ix2 b q)
      = (Finset.univ : Finset (Fin 4096)).fold max negInf (logit x0 x1 x3 b q) := by
  have hred : S4x4096x4096.Reduces [2] S4x4096 := by decide
  have h6 : val_main_v6 (F := Ideal) x0 x1 x3 (ix2 b q)
      = (Finset.univ : Finset (Fin 4096)).fold max negInf (logit x0 x1 x3 b q) := by
    unfold val_main_v6
    generalize hy : (val_main_v5 (F := Ideal) x0 x1 x3 : S4x4096x4096.Idx → Ideal .f32) = y
    refine (Host.reduce_eq_fold_single (α := Ideal .f32) FloatOps.maximumf y (val_main_cst_1 (F := Ideal))
      reducesTo_S4x4096x4096_S4x4096_d2 hred h_S_ (ix2 b q)).trans ?_
    have hf : (y ∘ hred.lift (ix2 b q)) = logit x0 x1 x3 b q := funext fun k => by
      show y (hred.lift (ix2 b q) k) = _
      rw [lift_lane, ← hy, logit_ix3]
      rfl
    rw [hf]
    rfl
  rw [val_main_v8_apply, val_main_v7_apply, val_main_cst_2_apply, h6]
  simp only [Ideal.ofBits_def, Ideal.maximumf_def]
  exact max_eq_right ((Finset.le_fold_max negInf).2 (Or.inl le_rfl))

/-! ## The stable softmax -/

/-- The exponential of the logit minus the row maximum. -/
theorem exponent_ix3 (x0 : (⟨S4x4096x128, .f32⟩ : BufTy).Contents (Elt Ideal)) (x1 : (⟨S128x128, .f32⟩ : BufTy).Contents (Elt Ideal))
    (x3 : (⟨S4x4096x4096, .i1⟩ : BufTy).Contents (Elt Ideal)) (b : Fin 4) (q k : Fin 4096) :
    val_main_v12 (F := Ideal) x0 x1 x3 (ix3 b q k)
      = Ideal.exp (logit x0 x1 x3 b q k - (Finset.univ : Finset (Fin 4096)).fold max negInf (logit x0 x1 x3 b q)) := by
  have e : idx_main_v9 (idx_main_v10 (ix3 b q k)) = ix2 b q :=
    funext fun a => Fin.ext (by match a with | ⟨0, _⟩ => rfl | ⟨1, _⟩ => rfl)
  rw [val_main_v12_apply, val_main_v11_apply, val_main_v10_apply, val_main_v9_apply, e, rowmax_ix2, logit_ix3]
  simp only [Ideal.hostUnary_exp_def, Ideal.subf_def]

/-- The row sum of the exponentials, from the zero word. -/
theorem denominator_ix2 (x0 : (⟨S4x4096x128, .f32⟩ : BufTy).Contents (Elt Ideal)) (x1 : (⟨S128x128, .f32⟩ : BufTy).Contents (Elt Ideal))
    (x3 : (⟨S4x4096x4096, .i1⟩ : BufTy).Contents (Elt Ideal)) (b : Fin 4) (q : Fin 4096) :
    val_main_v13 (F := Ideal) x0 x1 x3 (ix2 b q)
      = ∑ k' : Fin 4096, Ideal.exp (logit x0 x1 x3 b q k'
          - (Finset.univ : Finset (Fin 4096)).fold max negInf (logit x0 x1 x3 b q)) := by
  rw [val_main_v13_apply, val_main_cst_3_apply]
  simp only [Ideal.ofBits_def]
  rw [Ideal.ofBits_zero_f32, zero_add]
  refine Finset.sum_congr rfl fun k' _ => ?_
  have e : idx_main_v13 (ix2 b q) k' = ix3 b q k' :=
    funext fun a => Fin.ext (by match a with | ⟨0, _⟩ => rfl | ⟨1, _⟩ => rfl | ⟨2, _⟩ => rfl)
  rw [e, exponent_ix3]

/-- The attention weight at (b, q, k). -/
theorem weight_ix3 (x0 : (⟨S4x4096x128, .f32⟩ : BufTy).Contents (Elt Ideal)) (x1 : (⟨S128x128, .f32⟩ : BufTy).Contents (Elt Ideal))
    (x3 : (⟨S4x4096x4096, .i1⟩ : BufTy).Contents (Elt Ideal)) (b : Fin 4) (q k : Fin 4096) :
    val_main_v16 (F := Ideal) x0 x1 x3 (ix3 b q k) = attn x0 x1 x3 b q k := by
  have e : idx_main_v14 (idx_main_v15 (ix3 b q k)) = ix2 b q :=
    funext fun a => Fin.ext (by match a with | ⟨0, _⟩ => rfl | ⟨1, _⟩ => rfl)
  rw [val_main_v16_apply, val_main_v15_apply, val_main_v14_apply, e, denominator_ix2, exponent_ix3]
  simp only [Ideal.hostDivf_def]
  rfl

/-- The reference's attention weights are the specification's. -/
theorem attn_eq (x0 : (⟨S4x4096x128, .f32⟩ : BufTy).Contents (Elt Ideal)) (x1 : (⟨S128x128, .f32⟩ : BufTy).Contents (Elt Ideal))
    (x3 : (⟨S4x4096x4096, .i1⟩ : BufTy).Contents (Elt Ideal)) :
    Cert.ReferenceIdeal.Read.val_main_v16 (F := Ideal) x0 x1 x3 = Cert.Attn.attnArr x0 x1 x3 := by
  funext i
  obtain ⟨b, q, k, rfl⟩ : ∃ (b : Fin 4) (q k : Fin 4096), i = ix3 b q k := ⟨i 0, i 1, i 2, eq_ix3 i⟩
  rw [weight_ix3, attnArr_ix3]

/-! ## The output -/

/-- The output at (b, q, e) is the sum of the value rows weighted by the attention weights. -/
theorem out_ix3 (x0 : (⟨S4x4096x128, .f32⟩ : BufTy).Contents (Elt Ideal)) (x1 x2 : (⟨S128x128, .f32⟩ : BufTy).Contents (Elt Ideal))
    (x3 : (⟨S4x4096x4096, .i1⟩ : BufTy).Contents (Elt Ideal)) (b : Fin 4) (q : Fin 4096) (e : Fin 128) :
    val_main_v17 (F := Ideal) x0 x1 x2 x3 (ix3 b q e) = out x0 x1 x2 x3 b q e := by
  rw [val_main_v17_apply]
  unfold out
  refine Finset.sum_congr rfl fun k _ => ?_
  have el : lidx_main_v17 (ix3 b q e) k = ix3 b q k :=
    funext fun a => Fin.ext (by match a with | ⟨0, _⟩ => rfl | ⟨1, _⟩ => rfl | ⟨2, _⟩ => rfl)
  have er : ridx_main_v17 (ix3 b q e) k = ix3 b k e :=
    funext fun a => Fin.ext (by match a with | ⟨0, _⟩ => rfl | ⟨1, _⟩ => rfl | ⟨2, _⟩ => rfl)
  rw [el, er, weight_ix3, val_ix3]

/-- The reference's output is the specification's. -/
theorem out_eq (x0 : (⟨S4x4096x128, .f32⟩ : BufTy).Contents (Elt Ideal)) (x1 x2 : (⟨S128x128, .f32⟩ : BufTy).Contents (Elt Ideal))
    (x3 : (⟨S4x4096x4096, .i1⟩ : BufTy).Contents (Elt Ideal)) :
    Cert.ReferenceIdeal.Read.val_main_v17 (F := Ideal) x0 x1 x2 x3 = Cert.Attn.outArr x0 x1 x2 x3 := by
  funext i
  obtain ⟨b, q, e, rfl⟩ : ∃ (b : Fin 4) (q : Fin 4096) (e : Fin 128), i = ix3 b q e := ⟨i 0, i 1, i 2, eq_ix3 i⟩
  rw [out_ix3, outArr_ix3]

end Cert.Attn.Ref

end
-- ==== Proof.lean ====
/-
  Single-head attention under a Boolean mask: the kernel program against the plain reference.

  Both programs compute, for every batch, keys and values as projections of the input rows by two square weight
  matrices, the scores of every query row against every key row scaled by the reciprocal of the square root of the
  feature count as single precision holds it, the bottom element where the mask holds, the softmax of each row in
  its stable form, and the value rows weighted by the result. The kernel program does it in two tiled regions (the
  projections of 2048 rows at a time; then 512 query rows at a time against a batch's whole keys and values) with
  re-layings and a widening of the mask in between; the reference in one line of whole-array operations. On the
  extended reals changes of float format are the identity and sums do not depend on their grouping, so the two
  result pairs are the same functions of the arguments (the modules under Proof/: the specification, the
  reference read stage by stage, the kernel bodies' arithmetic, the regions' blocks assembled into arrays, the
  host operations between them). The kernel multiplies a score by a constant it names as the exact reciprocal of
  the number the reference divides by; that naming is the one rewrite of the idealization, restated below.
-/
import proofs.«129973_j52381421142031_2_alg».proof.Defs
import proofs.«129973_j52381421142031_2_alg».proof.Proof.Gen.Kernel
import proofs.«129973_j52381421142031_2_alg».proof.Proof.Gen.Kernel.Skeleton
import proofs.«129973_j52381421142031_2_alg».proof.Proof.Gen.Kernel.Launch
import proofs.«129973_j52381421142031_2_alg».proof.Proof.Gen.Kernel.Points
import proofs.«129973_j52381421142031_2_alg».proof.Proof.Gen.Kernel.Frame
import proofs.«129973_j52381421142031_2_alg».proof.Proof.Gen.KernelIdeal
import proofs.«129973_j52381421142031_2_alg».proof.Proof.Gen.KernelIdeal.Skeleton
import proofs.«129973_j52381421142031_2_alg».proof.Proof.Gen.KernelIdeal.Launch
import proofs.«129973_j52381421142031_2_alg».proof.Proof.Gen.KernelIdeal.Points
import proofs.«129973_j52381421142031_2_alg».proof.Proof.Gen.KernelIdeal.Frame
import proofs.«129973_j52381421142031_2_alg».proof.Proof.Gen.ReferenceIdeal
import proofs.«129973_j52381421142031_2_alg».proof.Proof.Gen.Pre_finite_inputs
import proofs.«129973_j52381421142031_2_alg».proof.Proof.Gen.ReferenceIdeal.Run
import proofs.«129973_j52381421142031_2_alg».proof.Proof.Gen.ReferenceIdeal.Read
import proofs.«129973_j52381421142031_2_alg».proof.Proof.KRun
import proofs.«129973_j52381421142031_2_alg».proof.Proof.KernelValue
import proofs.«129973_j52381421142031_2_alg».proof.Proof.RefIsAttn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the scale's word is named the rational 1048576 / 11863283. -/
theorem preserves : Cert.preserves_Kernel_KernelIdeal :=
  IdealRules.named_const.statement Cert.KernelIdeal.κ "fold_c_1048576_11863283" .f32 0x3DB504F3#32
    ((1048576 / 11863283 : ℝ) : EReal) rfl

/-- From memories agreeing on the arguments both programs end with the specification's output and attention
    weights of those arguments. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attn.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Attn.KernelValue.output_result m ρ c),
        (h c).2.1.trans (Cert.Attn.KernelValue.weights_result m ρ c), (h c).2.2⟩)
      (Cert.Attn.KRun.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v17_eq, Cert.Attn.Ref.out_eq, (hagree c).1, (hagree c).2.1, (hagree c).2.2.1, (hagree c).2.2.2]
    · rw [Cert.ReferenceIdeal.Read.val_main_v16_eq, Cert.Attn.Ref.attn_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
